-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128 .f32) (main_arg3 : FVec F S128 .f32) (main_arg4 : FVec F S128x128 .f32) (main_arg5 : FVec F S128 .f32) (main_arg6 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S5000x128 : Shape := ⟨2, ![5000, 128]⟩
abbrev S5000 : Shape := ⟨1, ![5000]⟩
abbrev S5000x1 : Shape := ⟨2, ![5000, 1]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 37
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .bf16⟩
  | .hbm, ⟨36, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S128x128, .bf16⟩
  | .local _ .vmem, ⟨14, _⟩ => ⟨S128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128 : Shape := ⟨1, ![128]⟩
abbrev S128x128 : Shape := ⟨2, ![128, 128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000, .f32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S1x1600000, .i32⟩
  | .hbm, ⟨40, _⟩ => ⟨S1600000, .i32⟩
  | .hbm, ⟨41, _⟩ => ⟨S1x1600000, .i32⟩
  | .hbm, ⟨42, _⟩ => ⟨S1600000, .i32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S128x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  transposes_S128x128_S128x128_1_0 : S128x128.Transposes [1, 0] S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The whole program's run with its result array named.

  The program is four segments: a host stretch, the normalisation region, a host stretch, the combine region. From any
  memory with zero counters every weakly fair execution terminates without a fault, and every unscoped buffer ends at
  the contents the fold through the segments gives it (`Gen.W4`); read at the arguments that is the launch memory, and
  read at the result buffer it is the array the combine region leaves. This is the launch of the segments that the frame
  claim uses, with the result buffer kept in the post beside the arguments.
-/
import proofs.«153541_j7851200217415_1_alg».proof.Proof.Gen.KernelIdeal.Frame

set_option maxRecDepth 16384

noncomputable section

namespace Cert.SageLayer.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.SageLayer.Kern

end
-- ==== Proof.Spec.lean ====
/-
  One output entry of a mean-aggregating graph layer over layer-normalised, rectified node features, written over
  single rows of extended reals.

  A node's feature row `xr` (128 entries) is normalised by its own mean and variance, scaled and shifted entrywise and
  rectified: `normRelu`. An output entry is then the sum of two contractions along the feature axis — the neighbour
  sum divided by the clamped neighbour count against one weight row, and the node's own normalised row against
  another — plus a bias. The two programs add these three terms in different orders; addition of extended reals is
  commutative and associative, so the orders agree (`combineLeft_eq_combineRight`), with no finiteness needed.
  The four float literals are kept as their words: both programs carry the same words, so they are never evaluated.
-/
import Idealize.ShloMosaic.PureOps.Ideal.Laws

noncomputable section

namespace Cert.SageLayer

open Idealize.ShloMosaic

/-- The float words both programs share: zero, one, the row width 128 and the variance guard. -/
abbrev wZero : EReal := Ideal.ofBits .f32 0x00000000#32
abbrev wOne : EReal := Ideal.ofBits .f32 0x3F800000#32
abbrev wWidth : EReal := Ideal.ofBits .f32 0x43000000#32
abbrev wGuard : EReal := Ideal.ofBits .f32 0x3727C5AC#32

/-- The mean of a row: its sum over the width. -/
def rowMean (xr : Fin 128 → EReal) : EReal := Ideal.div (∑ k : Fin 128, xr k) wWidth

/-- The variance of a row: the mean of the squared deviations from the row's mean. -/
def rowVar (xr : Fin 128 → EReal) : EReal :=
  Ideal.div (∑ k : Fin 128, (xr k - rowMean xr) * (xr k - rowMean xr)) wWidth

/-- The normalised entry `xq` of the row `xr`, scaled by `g`, shifted by `b`, rectified. -/
def normRelu (xr : Fin 128 → EReal) (g b xq : EReal) : EReal :=
  max ((xq - rowMean xr) * Ideal.rsqrt (rowVar xr + wGuard) * g + b) wZero

/-- A neighbour sum divided by the neighbour count, the count clamped below at one. -/
def meanAgg (s cnt : EReal) : EReal := Ideal.div s (max cnt wOne)

/-- An output entry with the two contractions added first and the bias last. -/
def combineLeft (sr hr wl wr : Fin 128 → EReal) (cnt bias : EReal) : EReal :=
  (∑ k : Fin 128, meanAgg (sr k) cnt * wl k) + (∑ k : Fin 128, hr k * wr k) + bias

/-- The same entry with the bias added to the neighbour contraction before the node's own contraction. -/
def combineRight (sr hr wl wr : Fin 128 → EReal) (cnt bias : EReal) : EReal :=
  (∑ k : Fin 128, meanAgg (sr k) cnt * wl k) + bias + (∑ k : Fin 128, hr k * wr k)

/-- The two orders of the three-term sum agree: addition of extended reals is commutative and associative. -/
theorem combineLeft_eq_combineRight (sr hr wl wr : Fin 128 → EReal) (cnt bias : EReal) :
    combineLeft sr hr wl wr cnt bias = combineRight sr hr wl wr cnt bias := by
  unfold combineLeft combineRight
  exact add_right_comm _ _ _

end Cert.SageLayer

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.NormBlock.lean ====
/-
  What the normalisation body stores, read at an entry of its block.

  The body works on a block of 5000 rows. Each row's sum is taken along the row, cast to a column, divided by the width
  and broadcast back across the row; so every entry of the block sees its own row's mean, and likewise its own row's
  variance. The scale and the shift are vectors along the row, cast to a `[1, 128]` row and broadcast down the block.
  Hence the stored value at `(p, q)` is `normRelu` of row `p` of the block, column `q` of the scale and the shift.
-/
import proofs.«153541_j7851200217415_1_alg».proof.Proof.Gen.KernelIdeal.Skeleton
import proofs.«153541_j7851200217415_1_alg».proof.Proof.Spec
import proofs.«153541_j7851200217415_1_alg».proof.Proof.LibRowReads
import proofs.«153541_j7851200217415_1_alg».proof.Proof.LibColumnReads
import Idealize.ShloMosaic.Lib.ValueIdx
import Idealize.ShloMosaic.Lib.ValueLayout
import Idealize.ShloMosaic.Lib.Pipeline.Value

noncomputable section

namespace Cert.SageLayer.Kern

open Cert.KernelIdeal Cert.KernelIdeal.Gen Idealize.ShloMosaic Idealize.ShloMosaic.TcCoe Idealize.ShloMosaic.ValueIdx

/-- A block's row sums, cast to a column, over the width and broadcast back: at `(p, q)` the mean-like quotient of row
    `p`'s sum. -/
theorem rowQuot_apply (v : FVec Ideal S5000x128 .f32) (h : S5000x128.Reduces [1] S5000) (hφ : FKind.Formats .f32)
    (hacc : (0x00000000#32 : BitVec FTy.f32.bits) = FKind.add.neutral .f32 hφ) (hc : S5000.ShapeCasts S5000x1)
    (hb : S5000x1.Broadcasts S5000x128) (p : Fin 5000) (q : Fin 128) :
    broadcastTo S5000x128
        (divf (shapeCast S5000x1 (multiReduction (F := Ideal) .add [1] S5000 v 0x00000000#32 h hφ hacc) hc)
          (broadcast S5000x1 (FloatOps.ofBits (F := Ideal) .f32 0x43000000#32))) hb (ix2 p q)
      = Ideal.div (∑ k : Fin 128, v (ix2 p k)) wWidth := by
  refine (Cert.LibColumnReads.broadcastTo_a1_ab_apply _ hb p q).trans ?_
  show Ideal.div (shapeCast S5000x1 (multiReduction (F := Ideal) .add [1] S5000 v 0x00000000#32 h hφ hacc) hc (ix2 p (0 : Fin 1))) wWidth = _
  exact congrArg (fun s => Ideal.div s wWidth)
    ((Cert.LibColumnReads.shapeCast_a_a1_apply _ hc p (0 : Fin 1)).trans (Cert.LibRowReads.rowSum_apply v _ h hφ hacc p))

/-- A feature-length vector cast to a `[1, 128]` row and broadcast down the block: at `(p, q)` its entry `q`. -/
theorem rowVec_apply (g : FVec Ideal S128 .f32) (hc : S128.ShapeCasts S1x128) (hb : S1x128.Broadcasts S5000x128)
    (p : Fin 5000) (q : Fin 128) :
    broadcastTo S5000x128 (shapeCast S1x128 g hc) hb (ix2 p q) = g (ix1 q) :=
  (broadcastTo_1b_ab_apply _ hb p q).trans (shapeCast_a_1a_apply g hc (0 : Fin 1) q)

/-- The normalisation body's stored value at entry `(p, q)` of its block. -/
theorem norm_block_apply (x0 : FVec Ideal S5000x128 .f32) (g b : FVec Ideal S128 .f32) (p : Fin 5000) (q : Fin 128) :
    k0_pay1 (F := Ideal) x0 g b (ix2 p q) = normRelu (fun k => x0 (ix2 p k)) (g (ix1 q)) (b (ix1 q)) (x0 (ix2 p q)) := by
  unfold k0_pay1
  simp only [maximumf_apply, addf_apply, mulf_apply, subf_apply, broadcast_apply]
  unfold normRelu
  refine congrArg₂ max (congrArg₂ (· + ·) (congrArg₂ (· * ·) (congrArg₂ (· * ·) (congrArg₂ (· - ·) rfl ?_) ?_) ?_) ?_) rfl
  · exact rowQuot_apply x0 _ _ _ _ _ p q
  · refine (Cert.LibColumnReads.broadcastTo_a1_ab_apply _ _ p q).trans ?_
    refine congrArg (fun s => Ideal.rsqrt (s + wGuard)) ?_
    refine ((Cert.LibColumnReads.broadcastTo_a1_ab_apply _ broadcasts_S5000x1_S5000x128 p q).symm.trans
      (rowQuot_apply _ _ _ _ _ broadcasts_S5000x1_S5000x128 p q)).trans ?_
    unfold rowVar
    refine congrArg (fun s => Ideal.div s wWidth) (Finset.sum_congr rfl fun k _ => ?_)
    have hm := rowQuot_apply x0 reduces_S5000x128_S5000 (.inl rfl) rfl shapeCasts_S5000_S5000x1 broadcasts_S5000x1_S5000x128 p k
    show (x0 (ix2 p k) - _) * (x0 (ix2 p k) - _) = _
    rw [hm]
    rfl
  · exact rowVec_apply g _ _ p q
  · exact rowVec_apply b _ _ p q

end Cert.SageLayer.Kern

end
-- ==== Proof.RefReads.lean ====
/-
  The reference program read at an entry, in the row functions of Spec.lean.

  Its stages are the generated ones (one per operation); here each group of stages that makes up one quantity of the
  layer is read at an index given by its coordinates: a row's mean and variance, the normalised and rectified features,
  and an output entry as the neighbour contraction plus the bias plus the node's own contraction. The gather and the two
  scatter-adds are not opened: they enter only as the arrays `val_main_v38` (neighbour sums) and `val_main_v42`
  (neighbour counts).
-/
import proofs.«153541_j7851200217415_1_alg».proof.Proof.Gen.ReferenceIdeal.Read
import proofs.«153541_j7851200217415_1_alg».proof.Proof.Spec
import Idealize.ShloMosaic.Lib.ValueIdx

noncomputable section

namespace Cert.SageLayer.Ref

open Cert.ReferenceIdeal Cert.ReferenceIdeal.Read Idealize.ShloMosaic Idealize.ShloMosaic.ValueIdx

/-- The feature array, the edge list, a feature-length vector and a weight matrix, as the reference's stages take them. -/
abbrev Feat := (⟨S100000x128, .f32⟩ : BufTy).Contents (Elt Ideal)
abbrev Edges := (⟨S2x1600000, .i32⟩ : BufTy).Contents (Elt Ideal)
abbrev Vec128 := (⟨S128, .f32⟩ : BufTy).Contents (Elt Ideal)
abbrev Mat128 := (⟨S128x128, .f32⟩ : BufTy).Contents (Elt Ideal)

/-- A row's mean: the zero-started sum of the row over the width. -/
theorem mean_apply (x : Feat) (r : Fin 100000) (u : Fin 1) :
    val_main_v3 (F := Ideal) x (ix2 r u) = rowMean (fun k => x (ix2 r k)) := by
  rw [val_main_v3_apply, val_main_v1_apply, val_main_v0_apply, val_main_v2_apply, val_main_cst_apply, val_main_cst_0_apply]
  unfold rowMean
  rw [Ideal.hostDivf_def, Ideal.ofBits_def, Ideal.ofBits_def, Ideal.ofBits_zero_f32, zero_add]
  refine congrArg (fun s => Ideal.div s wWidth) (Finset.sum_congr rfl fun k _ => congrArg x ?_)
  exact funext fun a => Fin.ext (by match a with | ⟨0, _⟩ => rfl | ⟨1, _⟩ => rfl)

/-- An entry's deviation from its row's mean. -/
theorem dev_apply (x : Feat) (r : Fin 100000) (q : Fin 128) :
    val_main_v5 (F := Ideal) x (ix2 r q) = x (ix2 r q) - rowMean (fun k => x (ix2 r k)) := by
  rw [val_main_v5_apply, val_main_v4_apply]
  have e : idx_main_v4 (ix2 r q) = ix2 r (0 : Fin 1) :=
    funext fun a => Fin.ext (by match a with | ⟨0, _⟩ => rfl | ⟨1, _⟩ => rfl)
  rw [e, mean_apply]
  rfl

/-- A row's variance: the zero-started sum of the squared deviations over the width. -/
theorem var_apply (x : Feat) (r : Fin 100000) (u : Fin 1) :
    val_main_v10 (F := Ideal) x (ix2 r u) = rowVar (fun k => x (ix2 r k)) := by
  rw [val_main_v10_apply, val_main_v8_apply, val_main_v7_apply, val_main_v9_apply, val_main_cst_1_apply, val_main_cst_2_apply]
  unfold rowVar
  rw [Ideal.hostDivf_def, Ideal.ofBits_def, Ideal.ofBits_def, Ideal.ofBits_zero_f32, zero_add]
  refine congrArg (fun s => Ideal.div s wWidth) (Finset.sum_congr rfl fun k _ => ?_)
  have e : idx_main_v7 (idx_main_v8 (ix2 r u)) k = ix2 r k :=
    funext fun a => Fin.ext (by match a with | ⟨0, _⟩ => rfl | ⟨1, _⟩ => rfl)
  rw [e, val_main_v6_apply, dev_apply]
  rfl

/-- The normalised, scaled, shifted and rectified features at an entry. -/
theorem feat_apply (x : Feat) (g b : Vec128) (r : Fin 100000) (q : Fin 128) :
    val_main_v24 (F := Ideal) x g b (ix2 r q) = normRelu (fun k => x (ix2 r k)) (g (ix1 q)) (b (ix1 q)) (x (ix2 r q)) := by
  rw [val_main_v24_apply, val_main_v23_apply, val_main_v20_apply, val_main_v17_apply, val_main_v12_apply, val_main_v11_apply,
    val_main_v16_apply, val_main_v15_apply, val_main_v14_apply, val_main_v13_apply, val_main_cst_3_apply,
    val_main_v19_apply, val_main_v18_apply, val_main_v22_apply, val_main_v21_apply, val_main_call0_v0_apply,
    val_main_call0_cst_apply]
  have e1 : idx_main_v11 (ix2 r q) = ix2 r (0 : Fin 1) :=
    funext fun a => Fin.ext (by match a with | ⟨0, _⟩ => rfl | ⟨1, _⟩ => rfl)
  have e2 : idx_main_v16 (ix2 r q) = ix2 r (0 : Fin 1) :=
    funext fun a => Fin.ext (by match a with | ⟨0, _⟩ => rfl | ⟨1, _⟩ => rfl)
  have eg : idx_main_v18 (idx_main_v19 (ix2 r q)) = ix1 q := funext fun a => Fin.ext (by match a with | ⟨0, _⟩ => rfl)
  have eb : idx_main_v21 (idx_main_v22 (ix2 r q)) = ix1 q := funext fun a => Fin.ext (by match a with | ⟨0, _⟩ => rfl)
  rw [e1, e2, eg, eb, mean_apply, var_apply]
  rfl

/-- The neighbour sum over the clamped neighbour count, at an entry. -/
theorem agg_apply (x : Feat) (e : Edges) (g b : Vec128) (r : Fin 100000) (q : Fin 128) :
    val_main_v47 (F := Ideal) x e g b (ix2 r q)
      = meanAgg (val_main_v38 (F := Ideal) x e g b (ix2 r q)) (val_main_v42 (F := Ideal) e (ix1 r)) := by
  rw [val_main_v47_apply, val_main_v46_apply, val_main_v45_apply, val_main_v44_apply, val_main_v43_apply, val_main_cst_8_apply]
  have er : idx_main_v45 (idx_main_v46 (ix2 r q)) = ix1 r := funext fun a => Fin.ext (by match a with | ⟨0, _⟩ => rfl)
  rw [er]
  rfl

/-- An output entry: the neighbour contraction, plus the bias, plus the node's own contraction; each weight matrix is
    read transposed, so entry `(r, q)` contracts row `q` of the weights. -/
theorem out_apply (x : Feat) (e : Edges) (g b : Vec128) (wl : Mat128) (bl : Vec128) (wr : Mat128) (r : Fin 100000) (q : Fin 128) :
    val_main_v55 (F := Ideal) x e g b wl bl wr (ix2 r q)
      = combineRight (fun k => val_main_v38 (F := Ideal) x e g b (ix2 r k)) (fun k => val_main_v24 (F := Ideal) x g b (ix2 r k))
          (fun k => wl (ix2 q k)) (fun k => wr (ix2 q k)) (val_main_v42 (F := Ideal) e (ix1 r)) (bl (ix1 q)) := by
  rw [val_main_v55_apply, val_main_v52_apply, val_main_v49_apply, val_main_v54_apply, val_main_v51_apply, val_main_v50_apply]
  have ec : idx_main_v50 (idx_main_v51 (ix2 r q)) = ix1 q := funext fun a => Fin.ext (by match a with | ⟨0, _⟩ => rfl)
  rw [ec]
  unfold combineRight
  rw [Ideal.addf_def, Ideal.addf_def]
  refine congrArg₂ (· + ·) (congrArg (· + bl (ix1 q)) (Finset.sum_congr rfl fun k _ => ?_)) (Finset.sum_congr rfl fun k _ => ?_)
  · have el : lidx_main_v49 (ix2 r q) k = ix2 r k :=
      funext fun a => Fin.ext (by match a with | ⟨0, _⟩ => rfl | ⟨1, _⟩ => rfl)
    have er : idx_main_v48 (ridx_main_v49 (ix2 r q) k) = ix2 q k :=
      funext fun a => Fin.ext (by match a with | ⟨0, _⟩ => rfl | ⟨1, _⟩ => rfl)
    rw [el, agg_apply, val_main_v48_apply, er]
  · have el : lidx_main_v54 (ix2 r q) k = ix2 r k :=
      funext fun a => Fin.ext (by match a with | ⟨0, _⟩ => rfl | ⟨1, _⟩ => rfl)
    have er : idx_main_v53 (ridx_main_v54 (ix2 r q) k) = ix2 q k :=
      funext fun a => Fin.ext (by match a with | ⟨0, _⟩ => rfl | ⟨1, _⟩ => rfl)
    rw [el, val_main_v53_apply, er]

end Cert.SageLayer.Ref

end
-- ==== Proof.FeatRegion.lean ====
/-
  The feature array after the normalisation region.

  The region's grid has 20 points; point `t` stages rows `5000 t … 5000 t + 4999` of the input, the whole scale and
  shift vectors, and writes the same rows of the output back. A row of the output depends only on the same row of the
  input, so what point `t` writes back is block `t` of ONE whole-array function: the reference's normalised features of
  the arrays as the region finds them. The twenty blocks cover the array (row `r` lies in block `r / 5000`), so after the
  region the output array is that function.
-/
import proofs.«153541_j7851200217415_1_alg».proof.Proof.Gen.KernelIdeal.Frame
import proofs.«153541_j7851200217415_1_alg».proof.Proof.NormBlock
import proofs.«153541_j7851200217415_1_alg».proof.Proof.RefReads
import Idealize.ShloMosaic.Lib.Pipeline.Value

set_option maxRecDepth 16384

noncomputable section

namespace Cert.SageLayer.Kern

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal.Read (val_main_v24)

/-- A block of 5000 rows whose entries are those of rows `ρ p` of a whole feature array, with the whole scale and
    shift vectors: the body's stored value at `y` is the reference's feature at the array index `e y` of that entry. -/
theorem feat_block (X : Ref.Feat) (G B : Ref.Vec128) (x0 : FVec Ideal S5000x128 .f32) (g0 b0 : FVec Ideal S128 .f32)
    (e : S5000x128.Idx → Cert.ReferenceIdeal.S100000x128.Idx) (ρ : Fin 5000 → Fin 100000)
    (he : ∀ p k, e (ix2 p k) = ix2 (ρ p) k) (hx : ∀ y, x0 y = X (e y)) (hg : g0 = G) (hb : b0 = B) (y : S5000x128.Idx) :
    k0_pay1 (F := Ideal) x0 g0 b0 y = val_main_v24 (F := Ideal) X G B (e y) := by
  subst hg hb
  obtain ⟨p, q, rfl⟩ : ∃ (p : Fin 5000) (q : Fin 128), y = ix2 p q := ⟨y 0, y 1, eq_ix2 y⟩
  rw [norm_block_apply, he, Ref.feat_apply, hx, he]
  refine congrArg (fun f => SageLayer.normRelu f (g0 (ix1 q)) (b0 (ix1 q)) (X (ix2 (ρ p) q))) (funext fun k => ?_)
  rw [hx, he]

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The printed index maps of region 0, decided over its grid: the input rows move with the output rows, block `t` is
    rows `5000 t` onward, the column block and the vectors' blocks are the whole. -/
theorem idx_facts0 : ∀ t : Fin cfg0.N, win0_0.index t (0 : Fin 2) = win0_3.index t (0 : Fin 2)
    ∧ win0_0.index t (1 : Fin 2) = 0 ∧ win0_3.index t (1 : Fin 2) = 0 ∧ win0_3.index t (0 : Fin 2) ≤ 19
    ∧ win0_1.index t (0 : Fin 1) = 0 ∧ win0_2.index t (0 : Fin 1) = 0 :=
  (by decide +kernel : ∀ t : Fin grid0.N, _)

/-- Every row block is some point's. -/
theorem idx_onto0 : ∀ q0 : Fin 20, ∃ t : Fin cfg0.N, win0_3.index t = ![q0.val, 0] :=
  (by decide +kernel : ∀ q0 : Fin 20, ∃ t : Fin grid0.N, win0_3.index t = ![q0.val, 0])

/-- What point `t` writes back is block `t` of the reference's features of the arrays as the region finds them. -/
theorem flushed0_eq (c : Dev nD) (t : Fin cfg0.N) :
    (dat0 V c).flushed 3 t = ((cfg0.win 3).blk t).view.read (Elt Ideal)
      (val_main_v24 (F := Ideal) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128) hz1]
  obtain ⟨e0, e1, e2, e3, e4, e5⟩ := idx_facts0 t
  funext j
  refine feat_block (V c main_arg0) (V c main_arg2) (V c main_arg3) (iblk0 V c 0 t) (iblk0 V c 1 t) (iblk0 V c 2 t)
    (fun y => ((cfg0.win 3).blk t).view.emb y) (fun p => ⟨win0_3.index t (0 : Fin 2) * 5000 + p.val, by have := p.isLt; omega⟩)
    (fun p k => ?_) (fun y => ?_) ?_ ?_ j
  · funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * k.val = k.val; omega
  · show V c main_arg0 (((cfg0.win 0).blk t).view.emb y) = V c main_arg0 (((cfg0.win 3).blk t).view.emb y)
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * (y 1).val = win0_3.index t (1 : Fin 2) * 128 + 1 * (y 1).val; omega
  · funext y
    show V c main_arg2 (((cfg0.win 1).blk t).view.emb y) = V c main_arg2 y
    refine congrArg (V c main_arg2) (funext fun a => Fin.ext ?_)
    match a with
    | ⟨0, _⟩ => show win0_1.index t (0 : Fin 1) * 128 + 1 * (y 0).val = (y 0).val; omega
  · funext y
    show V c main_arg3 (((cfg0.win 2).blk t).view.emb y) = V c main_arg3 y
    refine congrArg (V c main_arg3) (funext fun a => Fin.ext ?_)
    match a with
    | ⟨0, _⟩ => show win0_2.index t (0 : Fin 1) * 128 + 1 * (y 0).val = (y 0).val; omega

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4).slice (win0_3.rect t)).set ↔ _
  rw [View.set_slice_whole, Rect.mem_set_unit]
  exact Iff.rfl

/-- The twenty row blocks cover the output array: row `r` is in block `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After region 0 its output array holds the reference's features of the arrays as the region found them. -/
theorem feat_final (c : Dev nD) :
    (dat0 V c).arrAt 3 cfg0.N = val_main_v24 (F := Ideal) (V c main_arg0) (V c main_arg2) (V c main_arg3) :=
  (dat0 V c).arrAt_eq_of_cover 3 _ (fun t _ => flushed0_eq V c t) cover0

end Cert.SageLayer.Kern

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.CombineBlock.lean ====
/-
  What the combine body stores, read at an entry of its block.

  The body divides a block of neighbour sums by the clamped neighbour counts (a column broadcast across the row),
  contracts the quotient with one weight matrix and the block of node features with another on the matrix unit, each
  into a zero accumulator, adds the two products and then the bias (a vector along the row broadcast down the block).
  A change of float format is the identity on extended reals, so at `(p, q)` the stored value is `combineLeft` of row
  `p` of the two blocks and column `q` of the two weight matrices.
-/
import proofs.«153541_j7851200217415_1_alg».proof.Proof.Gen.KernelIdeal.Skeleton
import proofs.«153541_j7851200217415_1_alg».proof.Proof.Spec
import proofs.«153541_j7851200217415_1_alg».proof.Proof.LibColumnReads
import proofs.«153541_j7851200217415_1_alg».proof.Proof.LibPlainDot
import proofs.«153541_j7851200217415_1_alg».proof.Proof.NormBlock
import Idealize.ShloMosaic.Lib.ValueIdx
import Idealize.ShloMosaic.Lib.ValueLayout
import Idealize.ShloMosaic.Lib.Pipeline.Value

noncomputable section

namespace Cert.SageLayer.Kern

open Cert.KernelIdeal Cert.KernelIdeal.Gen Idealize.ShloMosaic Idealize.ShloMosaic.TcCoe Idealize.ShloMosaic.ValueIdx

/-- The printed contraction record is the plain one: rows by a shared axis times the shared axis by columns. -/
theorem dot_eq_plain : dot_S5000x128_S128x128_S5000x128_1_0_0_1_n_n = DotDims.plain 5000 128 128 := rfl

/-- The neighbour sums over the clamped counts, narrowed for the matrix unit: at `(p, k)` the mean aggregate. -/
theorem aggBlock_apply (cnt : FVec Ideal S5000x1 .f32) (s : FVec Ideal S5000x128 .f32) (hc1 : S5000x1.ShapeCasts S5000x1)
    (hc2 : S5000x128.ShapeCasts S5000x128) (hb : S5000x1.Broadcasts S5000x128) (hlt : FTy.bits .bf16 < FTy.bits .f32)
    (p : Fin 5000) (k : Fin 128) :
    (truncf .bf16 (divf (shapeCast S5000x128 s hc2)
        (broadcastTo S5000x128 (maximumf (shapeCast S5000x1 cnt hc1) (broadcast S5000x1 (FloatOps.ofBits (F := Ideal) .f32 0x3F800000#32))) hb))
      hlt : FVec Ideal S5000x128 .bf16) (ix2 p k) = meanAgg (s (ix2 p k)) (cnt (ix2 p (0 : Fin 1))) := by
  unfold meanAgg
  refine congrArg₂ Ideal.div (congrFun (shapeCast_self s hc2) _) ((Cert.LibColumnReads.broadcastTo_a1_ab_apply _ hb p k).trans ?_)
  exact congrArg (fun t => max t wOne) (congrFun (shapeCast_self cnt hc1) _)

/-- The combine body's stored value at entry `(p, q)` of its block. -/
theorem combine_block_apply (cnt : FVec Ideal S5000x1 .f32) (s : FVec Ideal S5000x128 .f32) (wl : FVec Ideal S128x128 .bf16)
    (h : FVec Ideal S5000x128 .f32) (wr : FVec Ideal S128x128 .bf16) (bias : FVec Ideal S128 .f32) (p : Fin 5000) (q : Fin 128) :
    k1_pay1 (F := Ideal) cnt s wl h wr bias (ix2 p q)
      = combineLeft (fun k => s (ix2 p k)) (fun k => h (ix2 p k)) (fun k => wl (ix2 k q)) (fun k => wr (ix2 k q))
          (cnt (ix2 p (0 : Fin 1))) (bias (ix1 q)) := by
  unfold k1_pay1
  simp only [addf_apply]
  unfold combineLeft
  refine congrArg₂ (· + ·) (congrArg₂ (· + ·) ?_ ?_) (rowVec_apply bias _ _ p q)
  · show FloatOps.matmul (DotDims.plain 5000 128 128) none _ _ (constant ⟨2, ![5000, 128]⟩ .f32 0x00000000#32) (ix2 p q) = _
    refine (Cert.Lib.PlainDot.matmul_zero_apply 5000 128 128 none _ _ (ix2 p q)).trans (Finset.sum_congr rfl fun k _ => ?_)
    exact congrArg₂ (· * ·) (aggBlock_apply cnt s _ _ _ _ p k) (congrFun (shapeCast_self wl _) _)
  · show FloatOps.matmul (DotDims.plain 5000 128 128) none _ _ (constant ⟨2, ![5000, 128]⟩ .f32 0x00000000#32) (ix2 p q) = _
    refine (Cert.Lib.PlainDot.matmul_zero_apply 5000 128 128 none _ _ (ix2 p q)).trans (Finset.sum_congr rfl fun k _ => ?_)
    exact congrArg₂ (· * ·) (congrFun (shapeCast_self h _) _) (congrFun (shapeCast_self wr _) _)

end Cert.SageLayer.Kern

end
-- ==== Proof.OutRegion.lean ====
/-
  The output array after the combine region.

  The region's grid has 20 points; point `t` stages rows `5000 t … 5000 t + 4999` of the neighbour sums, of the
  neighbour counts (a column) and of the node features, the two whole weight matrices and the whole bias, and writes
  the same rows of the output back. A row of the output depends only on the same row of the three row-blocked inputs,
  so what point `t` writes back is block `t` of ONE whole-array function `O`, provided `O` at `(r, q)` is the
  bias-in-the-middle sum `combineRight` of row `r` — the reference's order; the body adds the bias last, and the two
  orders agree. The twenty blocks cover the array, so after the region the output array is `O`.
  The weight matrices reach the region already transposed: entry `(k, q)` of a staged matrix is entry `(q, k)` of the
  argument.
-/
import proofs.«153541_j7851200217415_1_alg».proof.Proof.Gen.KernelIdeal.Frame
import proofs.«153541_j7851200217415_1_alg».proof.Proof.CombineBlock
import proofs.«153541_j7851200217415_1_alg».proof.Proof.RefReads
import proofs.«153541_j7851200217415_1_alg».proof.Proof.FeatRegion
import Idealize.ShloMosaic.Lib.Pipeline.Value

set_option maxRecDepth 16384

noncomputable section

namespace Cert.SageLayer.Kern

open Cert.KernelIdeal Cert.KernelIdeal.Gen Idealize.ShloMosaic Idealize.ShloMosaic.TcCoe Idealize.SL.Sem
open Idealize.ShloMosaic.ValueIdx
open Idealize.ShloMosaic.Pipeline (Dat)

/-- A block of 5000 rows of the three row-blocked inputs, read off whole arrays `S`, `Cn`, `Hh` at rows `ρ p`, with the
    transposed weights and the bias: the body's stored value at `y` is `O` at the array index `e y` of that entry,
    for any `O` that is `combineRight` of its row. -/
theorem out_block (S Hh O : Ref.Feat) (Cn : Cert.ReferenceIdeal.S100000.Idx → EReal) (WL WR : Ref.Mat128) (BL : Ref.Vec128)
    (hO : ∀ (r : Fin 100000) (q : Fin 128), O (ix2 r q)
      = SageLayer.combineRight (fun k => S (ix2 r k)) (fun k => Hh (ix2 r k)) (fun k => WL (ix2 q k)) (fun k => WR (ix2 q k))
          (Cn (ix1 r)) (BL (ix1 q)))
    (cnt : FVec Ideal S5000x1 .f32) (s h : FVec Ideal S5000x128 .f32) (wl wr : FVec Ideal S128x128 .bf16) (bias : FVec Ideal S128 .f32)
    (e : S5000x128.Idx → Cert.ReferenceIdeal.S100000x128.Idx) (ρ : Fin 5000 → Fin 100000)
    (he : ∀ p k, e (ix2 p k) = ix2 (ρ p) k) (hs : ∀ y, s y = S (e y)) (hh : ∀ y, h y = Hh (e y))
    (hc : ∀ p, cnt (ix2 p (0 : Fin 1)) = Cn (ix1 (ρ p))) (hwl : ∀ k q, wl (ix2 k q) = WL (ix2 q k))
    (hwr : ∀ k q, wr (ix2 k q) = WR (ix2 q k)) (hb : bias = BL) (y : S5000x128.Idx) :
    k1_pay1 (F := Ideal) cnt s wl h wr bias y = O (e y) := by
  subst hb
  obtain ⟨p, q, rfl⟩ : ∃ (p : Fin 5000) (q : Fin 128), y = ix2 p q := ⟨y 0, y 1, eq_ix2 y⟩
  rw [combine_block_apply, he, hO, ← SageLayer.combineLeft_eq_combineRight, hc]
  have e1 : (fun k => s (ix2 p k)) = fun k => S (ix2 (ρ p) k) := funext fun k => by rw [hs, he]
  have e2 : (fun k => h (ix2 p k)) = fun k => Hh (ix2 (ρ p) k) := funext fun k => by rw [hh, he]
  have e3 : (fun k => wl (ix2 k q)) = fun k => WL (ix2 q k) := funext fun k => hwl k q
  have e4 : (fun k => wr (ix2 k q)) = fun k => WR (ix2 q k) := funext fun k => hwr k q
  rw [e1, e2, e3, e4]

variable (V : (c : Dev nD) → (b : Ref sig .tc) → Buf (Elt Ideal) ((c : Thread nD τ).loc b))

/-- The printed index maps of region 1, decided over its grid: the three row-blocked inputs move with the output rows,
    every column block and the weights' and the bias's blocks are the whole. -/
theorem idx_facts1 : ∀ t : Fin cfg1.N, win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (1 : Fin 2) = 0 ∧ win1_6.index t (0 : Fin 2) ≤ 19 :=
  (by decide +kernel : ∀ t : Fin grid1.N, _)

/-- Every row block is some point's. -/
theorem idx_onto1 : ∀ q0 : Fin 20, ∃ t : Fin cfg1.N, win1_6.index t = ![q0.val, 0] :=
  (by decide +kernel : ∀ q0 : Fin 20, ∃ t : Fin grid1.N, win1_6.index t = ![q0.val, 0])

section
variable (c : Dev nD) (S Hh O : Ref.Feat) (Cn : Cert.ReferenceIdeal.S100000.Idx → EReal) (WL WR : Ref.Mat128) (BL : Ref.Vec128)
  (hO : ∀ (r : Fin 100000) (q : Fin 128), O (ix2 r q)
    = SageLayer.combineRight (fun k => S (ix2 r k)) (fun k => Hh (ix2 r k)) (fun k => WL (ix2 q k)) (fun k => WR (ix2 q k))
        (Cn (ix1 r)) (BL (ix1 q)))
  (hS : V c main_v14 = S) (hH : V c main_v4 = Hh) (hC : ∀ r : Fin 100000, V c main_v19 (ix2 r (0 : Fin 1)) = Cn (ix1 r))
  (hWL : ∀ k q : Fin 128, V c main_v21 (ix2 k q) = WL (ix2 q k)) (hWR : ∀ k q : Fin 128, V c main_v23 (ix2 k q) = WR (ix2 q k))
  (hB : V c main_arg5 = BL)

include hO hS hH hC hWL hWR hB

/-- What point `t` writes back is block `t` of `O`. -/
theorem flushed1_eq (t : Fin cfg1.N) :
    (dat1 V c).flushed 6 t = ((cfg1.win 6).blk t).view.read (Elt Ideal) O := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2, View.ld_unit_zero (S := S128x128) hz2,
    View.ld_unit_zero (S := S128) hz1]
  obtain ⟨a0, a1, b0, b1, c0, c1, d0, d1, f0, f1, g0, o1, o0⟩ := idx_facts1 t
  funext j
  refine out_block S Hh O Cn WL WR BL hO (iblk1 V c 1 t) (iblk1 V c 0 t) (iblk1 V c 2 t) (iblk1 V c 3 t) (iblk1 V c 4 t) (iblk1 V c 5 t)
    (fun y => ((cfg1.win 6).blk t).view.emb y) (fun p => ⟨win1_6.index t (0 : Fin 2) * 5000 + p.val, by have := p.isLt; omega⟩)
    (fun p k => ?_) (fun y => ?_) (fun y => ?_) (fun p => ?_) (fun k q => ?_) (fun k q => ?_) ?_ j
  · funext a; apply Fin.ext
    match a with
    | ⟨0, _⟩ => show win1_6.index t (0 : Fin 2) * 5000 + 1 * p.val = win1_6.index t (0 : Fin 2) * 5000 + p.val; omega
    | ⟨1, _⟩ => show win1_6.index t (1 : Fin 2) * 128 + 1 * k.val = k.val; omega
  · show V c main_v14 (((cfg1.win 0).blk t).view.emb y) = S (((cfg1.win 6).blk t).view.emb y)
    rw [hS]
    refine congrArg S (funext fun a => Fin.ext ?_)
    match a with
    | ⟨0, _⟩ => show win1_0.index t (0 : Fin 2) * 5000 + 1 * (y 0).val = win1_6.index t (0 : Fin 2) * 5000 + 1 * (y 0).val; omega
    | ⟨1, _⟩ => show win1_0.index t (1 : Fin 2) * 128 + 1 * (y 1).val = win1_6.index t (1 : Fin 2) * 128 + 1 * (y 1).val; omega
  · show V c main_v4 (((cfg1.win 2).blk t).view.emb y) = Hh (((cfg1.win 6).blk t).view.emb y)
    rw [hH]
    refine congrArg Hh (funext fun a => Fin.ext ?_)
    match a with
    | ⟨0, _⟩ => show win1_2.index t (0 : Fin 2) * 5000 + 1 * (y 0).val = win1_6.index t (0 : Fin 2) * 5000 + 1 * (y 0).val; omega
    | ⟨1, _⟩ => show win1_2.index t (1 : Fin 2) * 128 + 1 * (y 1).val = win1_6.index t (1 : Fin 2) * 128 + 1 * (y 1).val; omega
  · show V c main_v19 (((cfg1.win 1).blk t).view.emb (ix2 p (0 : Fin 1))) = _
    refine Eq.trans (congrArg (V c main_v19) ?_) (hC _)
    funext a; apply Fin.ext
    match a with
    | ⟨0, _⟩ => show win1_1.index t (0 : Fin 2) * 5000 + 1 * p.val = win1_6.index t (0 : Fin 2) * 5000 + p.val; omega
    | ⟨1, _⟩ => show win1_1.index t (1 : Fin 2) * 1 + 1 * 0 = 0; omega
  · show V c main_v21 (((cfg1.win 3).blk t).view.emb (ix2 k q)) = _
    refine Eq.trans (congrArg (V c main_v21) ?_) (hWL k q)
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  · show V c main_v23 (((cfg1.win 4).blk t).view.emb (ix2 k q)) = _
    refine Eq.trans (congrArg (V c main_v23) ?_) (hWR k q)
    funext a; apply Fin.ext
    match a with
    | ⟨0, _⟩ => show win1_4.index t (0 : Fin 2) * 128 + 1 * k.val = k.val; omega
    | ⟨1, _⟩ => show win1_4.index t (1 : Fin 2) * 128 + 1 * q.val = q.val; omega
  · rw [← hB]
    funext y
    show V c main_arg5 (((cfg1.win 5).blk t).view.emb y) = V c main_arg5 y
    refine congrArg (V c main_arg5) (funext fun a => Fin.ext ?_)
    match a with
    | ⟨0, _⟩ => show win1_5.index t (0 : Fin 1) * 128 + 1 * (y 0).val = (y 0).val; omega

omit hO hS hH hC hWL hWR hB in
/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v24).slice (win1_6.rect t)).set ↔ _
  rw [View.set_slice_whole, Rect.mem_set_unit]
  exact Iff.rfl

omit hO hS hH hC hWL hWR hB in
/-- The twenty row blocks cover the output array: row `r` is in block `r / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After region 1 its output array is `O`. -/
theorem out_final : (dat1 V c).arrAt 6 cfg1.N = O :=
  (dat1 V c).arrAt_eq_of_cover 6 _ (fun t _ => flushed1_eq V c S Hh O Cn WL WR BL hO hS hH hC hWL hWR hB t) cover1

end

end Cert.SageLayer.Kern

end
-- ==== Proof.LibColumnReshape.lean ====
/-
  Two re-layings of small-rank arrays read at an index, over arbitrary extents: an `[a]` vector reshaped to an
  `[a, 1]` column, and the transpose of an `[a, b]` array.
-/
import Idealize.ShloMosaic.Lib.Pipeline.Value
import Idealize.ShloMosaic.Lib.ValueIdx

noncomputable section

namespace Cert.Lib.ColumnReshape

open Idealize.ShloMosaic Idealize.ShloMosaic.ValueIdx

/-- An `[a]` vector reshaped to an `[a, 1]` column reads, at `(o, 0)`, the vector at `o`: the same row-major position. -/
theorem reshape_col_apply {α : Type} {a : ℕ} (x : (⟨1, ![a]⟩ : Shape).Idx → α)
    (h : (⟨1, ![a]⟩ : Shape).ShapeCasts ⟨2, ![a, 1]⟩) (o : Fin a) :
    shapeCast ⟨2, ![a, 1]⟩ x h (ix2 o (0 : Fin 1)) = x (ix1 o) :=
  shapeCast_apply x h _ (ix1 o) (by
    rw [Shape.rowMajor_val_one, Shape.rowMajor_val_two]
    show o.val = o.val * 1 + 0
    omega)

/-- The transpose of an `[a, b]` array reads, at `(p, q)`, the array at `(q, p)`. -/
theorem transpose_ab_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun bx => match bx with
    | ⟨0, _⟩ => rfl
    | ⟨1, _⟩ => rfl

end Cert.Lib.ColumnReshape

end
-- ==== Proof.ResultArray.lean ====
/-
  The arrays the combine region finds, and the array it leaves.

  Between the two regions the host gathers the feature rows of the edges' sources, scatter-adds them and a vector of
  ones onto the edges' targets, reshapes the counts to a column and transposes the two weight matrices. These are the
  reference's own operations on the same operands — the normalisation region's output is the reference's feature array
  (FeatRegion) — so the neighbour sums and counts the combine region finds are the reference's arrays, as terms: the
  gather and the scatter-adds are never opened. With those in hand the combine region leaves the reference's result
  (OutRegion).
-/
import proofs.«153541_j7851200217415_1_alg».proof.Proof.Gen.KernelIdeal.Frame
import proofs.«153541_j7851200217415_1_alg».proof.Proof.FeatRegion
import proofs.«153541_j7851200217415_1_alg».proof.Proof.OutRegion
import proofs.«153541_j7851200217415_1_alg».proof.Proof.RefReads
import proofs.«153541_j7851200217415_1_alg».proof.Proof.LibColumnReshape
import Idealize.ShloMosaic.Lib.StableHlo.Run

set_option maxRecDepth 16384

noncomputable section

namespace Cert.SageLayer.Kern

open Cert.KernelIdeal Cert.KernelIdeal.Gen Idealize.ShloMosaic Idealize.ShloMosaic.TcCoe Idealize.SL.Sem
open Idealize.ShloMosaic.ValueIdx Idealize.ShloMosaic.StableHlo
open Cert.ReferenceIdeal.Read (val_main_v24 val_main_v26 val_main_v28 val_main_v38 val_main_v42 val_main_v55)

variable (m : (ℓ : Loc nD τ sig) → Buf (Elt Ideal) ℓ) (ρ : Dev nD → PrngReg)

/-- The arguments as the first region finds them are the launch memory's: the host only slices the edge list before. -/
theorem arg0_entry (c : Dev nD) : V1 m ρ c main_arg0 = m ((c : Thread nD τ).loc main_arg0) := by
  show StableHlo.after hostOps0 (W0 m ρ c) (Proc.devRef .tc main_arg0) = _
  after_results
theorem arg2_entry (c : Dev nD) : V1 m ρ c main_arg2 = m ((c : Thread nD τ).loc main_arg2) := by
  show StableHlo.after hostOps0 (W0 m ρ c) (Proc.devRef .tc main_arg2) = _
  after_results
theorem arg3_entry (c : Dev nD) : V1 m ρ c main_arg3 = m ((c : Thread nD τ).loc main_arg3) := by
  show StableHlo.after hostOps0 (W0 m ρ c) (Proc.devRef .tc main_arg3) = _
  after_results

/-- After the first region its output array is the reference's feature array of the arguments. -/
theorem feat_exit (c : Dev nD) : W2 m ρ c (Proc.devRef .tc main_v4)
    = val_main_v24 (F := Ideal) (m ((c : Thread nD τ).loc main_arg0)) (m ((c : Thread nD τ).loc main_arg2)) (m ((c : Thread nD τ).loc main_arg3)) := by
  refine (W2_arr m ρ c 3).trans ((feat_final (V1 m ρ) c).trans ?_)
  rw [arg0_entry, arg2_entry, arg3_entry]

/-- The edges' sources and targets, sliced out of the edge list before the first region, are the reference's. -/
theorem src_exit (c : Dev nD) : W2 m ρ c (Proc.devRef .tc main_v1) = val_main_v26 (F := Ideal) (m ((c : Thread nD τ).loc main_arg1)) := by
  rw [W2_of_ne m ρ c main_v1 (by decide)]
  show StableHlo.after hostOps0 (W0 m ρ c) (Proc.devRef .tc main_v1) = _
  after_results
  rfl
theorem dst_exit (c : Dev nD) : W2 m ρ c (Proc.devRef .tc main_v3) = val_main_v28 (F := Ideal) (m ((c : Thread nD τ).loc main_arg1)) := by
  rw [W2_of_ne m ρ c main_v3 (by decide)]
  show StableHlo.after hostOps0 (W0 m ρ c) (Proc.devRef .tc main_v3) = _
  after_results
  rfl

/-- The neighbour sums the combine region finds are the reference's. -/
theorem sums_entry (c : Dev nD) : V3 m ρ c main_v14
    = val_main_v38 (F := Ideal) (m ((c : Thread nD τ).loc main_arg0)) (m ((c : Thread nD τ).loc main_arg1))
        (m ((c : Thread nD τ).loc main_arg2)) (m ((c : Thread nD τ).loc main_arg3)) := by
  show StableHlo.after hostOps1 (W2 m ρ c) (Proc.devRef .tc main_v14) = _
  after_results
  rw [src_exit, dst_exit, feat_exit]
  rfl

/-- The node features the combine region finds are the first region's output, untouched by the host. -/
theorem feat_entry (c : Dev nD) : V3 m ρ c main_v4
    = val_main_v24 (F := Ideal) (m ((c : Thread nD τ).loc main_arg0)) (m ((c : Thread nD τ).loc main_arg2)) (m ((c : Thread nD τ).loc main_arg3)) := by
  show StableHlo.after hostOps1 (W2 m ρ c) (Proc.devRef .tc main_v4) = _
  after_results
  exact feat_exit m ρ c

/-- The neighbour counts the combine region finds, a column, are the reference's counts row by row. -/
theorem counts_entry (c : Dev nD) (r : Fin 100000) : V3 m ρ c main_v19 (ix2 r (0 : Fin 1))
    = val_main_v42 (F := Ideal) (m ((c : Thread nD τ).loc main_arg1)) (ix1 r) := by
  have e : V3 m ρ c main_v19 = shapeCast S100000x1 (val_main_v42 (F := Ideal) (m ((c : Thread nD τ).loc main_arg1))) shapeCasts_S100000_S100000x1 := by
    show StableHlo.after hostOps1 (W2 m ρ c) (Proc.devRef .tc main_v19) = _
    after_results
    rw [dst_exit]
    rfl
  rw [e]
  exact Cert.Lib.ColumnReshape.reshape_col_apply _ _ r

/-- Each weight matrix the combine region finds is the argument transposed (the narrowing is the identity). -/
theorem wl_entry (c : Dev nD) (k q : Fin 128) : V3 m ρ c main_v21 (ix2 k q) = m ((c : Thread nD τ).loc main_arg4) (ix2 q k) := by
  have e : V3 m ρ c main_v21 = truncf (F := Ideal) .bf16 (transpose S128x128 [1, 0] (m ((c : Thread nD τ).loc main_arg4)) transposes_S128x128_S128x128_1_0) bitsLt_bf16_f32 := by
    show StableHlo.after hostOps1 (W2 m ρ c) (Proc.devRef .tc main_v21) = _
    after_results
    rw [W2_of_ne m ρ c main_arg4 (by decide)]
    show truncf (F := Ideal) .bf16 (transpose S128x128 [1, 0] (StableHlo.after hostOps0 (W0 m ρ c) (Proc.devRef .tc main_arg4)) _) _ = _
    after_results
  rw [e]
  exact Cert.Lib.ColumnReshape.transpose_ab_apply _ _ k q
theorem wr_entry (c : Dev nD) (k q : Fin 128) : V3 m ρ c main_v23 (ix2 k q) = m ((c : Thread nD τ).loc main_arg6) (ix2 q k) := by
  have e : V3 m ρ c main_v23 = truncf (F := Ideal) .bf16 (transpose S128x128 [1, 0] (m ((c : Thread nD τ).loc main_arg6)) transposes_S128x128_S128x128_1_0) bitsLt_bf16_f32 := by
    show StableHlo.after hostOps1 (W2 m ρ c) (Proc.devRef .tc main_v23) = _
    after_results
    rw [W2_of_ne m ρ c main_arg6 (by decide)]
    show truncf (F := Ideal) .bf16 (transpose S128x128 [1, 0] (StableHlo.after hostOps0 (W0 m ρ c) (Proc.devRef .tc main_arg6)) _) _ = _
    after_results
  rw [e]
  exact Cert.Lib.ColumnReshape.transpose_ab_apply _ _ k q

/-- The bias the combine region finds is the argument. -/
theorem bias_entry (c : Dev nD) : V3 m ρ c main_arg5 = m ((c : Thread nD τ).loc main_arg5) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results

/-- The result array after the whole program is the reference's result term of the arguments. -/
theorem result_exit (c : Dev nD) : W4 m ρ c (Proc.devRef .tc main_v24)
    = val_main_v55 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
  (W4_arr m ρ c 6).trans (out_final (V3 m ρ) c _ _ _ _ _ _ _
    (fun r q => Ref.out_apply _ _ _ _ _ _ _ r q)
    (sums_entry m ρ c) (feat_entry m ρ c) (counts_entry m ρ c) (wl_entry m ρ c) (wr_entry m ρ c) (bias_entry m ρ c))

end Cert.SageLayer.Kern

end
-- ==== Proof.lean ====
/-
  The kernel computes one mean-aggregating graph layer over layer-normalised, rectified node features in two tiled
  regions with a gather and two scatter-adds on the host between them; the reference computes the same layer with
  whole-array operations.

  Why the two agree on the extended reals, entry by entry:
  * a row of the normalised features depends only on the same row of the input, so the first region's twenty row
    blocks are blocks of the reference's feature array (Proof/NormBlock, Proof/FeatRegion);
  * the gather of source rows, the scatter-adds onto target rows and the count of incoming edges are the same host
    operations applied to the same feature array and the same edge list on both sides, so the neighbour sums and
    counts agree as terms and are never opened (Proof/ResultArray);
  * an output row depends only on the same row of the neighbour sums, the counts and the features; the kernel adds
    the two contractions and then the bias, the reference adds the bias between them, and addition of extended reals
    is commutative and associative (Proof/Spec, Proof/CombineBlock, Proof/OutRegion). A change of float format is the
    identity on extended reals, so the narrowed matrix-unit operands change nothing.
  No step uses finiteness of the inputs. The idealisation rewrote no operation, so `preserves` has nothing to state.
  The frames of the two kernel programs are the generated ones; the reference's frame is its generated run with the
  result dropped.
-/
import proofs.«153541_j7851200217415_1_alg».proof.Defs
import proofs.«153541_j7851200217415_1_alg».proof.Proof.Gen.Kernel
import proofs.«153541_j7851200217415_1_alg».proof.Proof.Gen.Kernel.Frame
import proofs.«153541_j7851200217415_1_alg».proof.Proof.Gen.KernelIdeal
import proofs.«153541_j7851200217415_1_alg».proof.Proof.Gen.KernelIdeal.Frame
import proofs.«153541_j7851200217415_1_alg».proof.Proof.Gen.ReferenceIdeal
import proofs.«153541_j7851200217415_1_alg».proof.Proof.Gen.ReferenceIdeal.Run
import proofs.«153541_j7851200217415_1_alg».proof.Proof.Gen.ReferenceIdeal.Read
import proofs.«153541_j7851200217415_1_alg».proof.Proof.Gen.Pre_finite_inputs
import proofs.«153541_j7851200217415_1_alg».proof.Proof.KernelRun
import proofs.«153541_j7851200217415_1_alg».proof.Proof.ResultArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the (agreeing) arguments. -/
theorem algebraic : Cert.algebraic_KernelIdeal_ReferenceIdeal := by
  intro m ρ m' ρ' _ hagree
  refine ⟨fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.SageLayer.Kern.result_exit m ρ c), (h c).2⟩)
      (Cert.SageLayer.Kern.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
